-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x2 : Shape := ⟨2, ![800000, 2]⟩
abbrev S6x128 : Shape := ⟨2, ![6, 128]⟩
abbrev S3x128 : Shape := ⟨2, ![3, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S6x128 : S_.BroadcastsInDim S6x128 (![] : Fin 0 → Fin S6x128.rank)
  reducesTo_S6x128_S_d0_1 : S6x128.ReducesTo [0, 1] S_
  bcast_S_S3x128 : S_.BroadcastsInDim S3x128 (![] : Fin 0 → Fin S3x128.rank)
  reducesTo_S3x128_S_d0_1 : S3x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S256x128 .f32) (main_arg14 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x128 .f32 := Host.absf main_arg13
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S6x128 .f32) (main_arg10 : FVec F S3x128 .f32) (main_arg11 : FVec F S128x256 .f32) (main_arg12 : FVec F S256 .f32) (main_arg13 : FVec F S256x128 .f32) (main_arg14 : FVec F S128 .f32) (main_v33 : IVec S_ 1) : IVec S_ 1 :=
  let main_v34 : FVec F S6x128 .f32 := Host.absf main_arg9
  let main_cst_12 : FVec F S_ .f32 := constant S_ .f32 0x7F800000#32
  let main_v35 : FVec F S6x128 .f32 := broadcastInDim S6x128 ![] bcast_S_S6x128 main_cst_12
  let main_v36 : IVec S6x128 1 := cmpf .olt main_v34 main_v35
  let main_c_13 : IVec S_ 1 := constantI S_ 1 1#1
  let main_v37 : IVec S_ 1 := (fun x v => Host.reduce IntOp.andi x v reducesTo_S6x128_S_d0_1 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x256 .f32 := Host.absf main_arg11
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S256 .f32) (main_arg7 : FVec F S256x128 .f32) (main_arg8 : FVec F S128 .f32) (main_arg9 : FVec F S6x128 .f32) (main_arg10 : FVec F S3x128 .f32) (main_arg11 : FVec F S128x256 .f32) (main_arg12 : FVec F S256 .f32) (main_arg13 : FVec F S256x128 .f32) (main_arg14 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : IVec S800000x2 32) (main_arg3 : FVec F S6x128 .f32) (main_arg4 : FVec F S3x128 .f32) (main_arg5 : FVec F S128x256 .f32) (main_arg6 : FVec F S256 .f32) (main_arg7 : FVec F S256x128 .f32) (main_arg8 : FVec F S128 .f32) (main_arg9 : FVec F S6x128 .f32) (main_arg10 : FVec F S3x128 .f32) (main_arg11 : FVec F S128x256 .f32) (main_arg12 : FVec F S256 .f32) (main_arg13 : FVec F S256x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S6x128 .f32 := Host.absf main_arg3
  let main_cst_0 : FVec F S_ .f32 := constant S_ .f32 0x7F800000#32
  let main_v5 : FVec F S6x128 .f32 := broadcastInDim S6x128 ![] bcast_S_S6x128 main_cst_0
  let main_v6 : IVec S6x128 1 := cmpf .olt main_v4 main_v5
  let main_c_1 : IVec S_ 1 := constantI S_ 1 1#1
  let main_v7 : IVec S_ 1 := (fun x v => Host.reduce IntOp.andi x v reducesTo_S6x128_S_d0_1 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S800000x2 : Shape := ⟨2, ![800000, 2]⟩
abbrev S6x128 : Shape := ⟨2, ![6, 128]⟩
abbrev S3x128 : Shape := ⟨2, ![3, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S800000x1 : Shape := ⟨2, ![800000, 1]⟩
abbrev S_ : Shape := ⟨0, ![]⟩
abbrev S800000x128 : Shape := ⟨2, ![800000, 128]⟩
abbrev S1x256 : Shape := ⟨2, ![1, 256]⟩
abbrev S1x128 : Shape := ⟨2, ![1, 128]⟩
abbrev S2000x128 : Shape := ⟨2, ![2000, 128]⟩
abbrev S2000x256 : Shape := ⟨2, ![2000, 256]⟩

abbrev nBuf : Space → Nat
  | .hbm => 103
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x2, .i32⟩
  | .hbm, ⟨3, _⟩ => ⟨S6x128, .f32⟩
  | .hbm, ⟨4, _⟩ => ⟨S3x128, .f32⟩
  | .hbm, ⟨5, _⟩ => ⟨S128x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S6x128, .f32⟩
  | .hbm, ⟨10, _⟩ => ⟨S3x128, .f32⟩
  | .hbm, ⟨11, _⟩ => ⟨S128x256, .f32⟩
  | .hbm, ⟨12, _⟩ => ⟨S256, .f32⟩
  | .hbm, ⟨13, _⟩ => ⟨S256x128, .f32⟩
  | .hbm, ⟨14, _⟩ => ⟨S128, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S800000x1, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S800000x1, .i32⟩
  | .hbm, ⟨31, _⟩ => ⟨S800000, .i32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S800000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S1x256, .f32⟩
  | .hbm, ⟨57, _⟩ => ⟨S1x128, .f32⟩
  | .hbm, ⟨58, _⟩ => ⟨S50000x128, .f32⟩
  | .hbm, ⟨59, _⟩ => ⟨S1x800000, .i32⟩
  | .hbm, ⟨60, _⟩ => ⟨S800000, .i32⟩
  | .hbm, ⟨61, _⟩ => ⟨S1x800000, .i32⟩
  | .hbm, ⟨62, _⟩ => ⟨S800000, .i32⟩
  | .hbm, ⟨63, _⟩ => ⟨S800000x1, .i32⟩
  | .hbm, ⟨64, _⟩ => ⟨S800000, .i32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S800000x1, .i32⟩
  | .hbm, ⟨75, _⟩ => ⟨S800000, .i32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S800000x128, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x128, .f32⟩
  | .hbm, ⟨95, _⟩ => ⟨S800000x128, .f32⟩
  | .hbm, ⟨96, _⟩ => ⟨S_, .f32⟩
  | .hbm, ⟨97, _⟩ => ⟨S50000x128, .f32⟩
  | .hbm, ⟨98, _⟩ => ⟨S800000x1, .i32⟩
  | .hbm, ⟨99, _⟩ => ⟨S50000x128, .f32⟩
  | .hbm, ⟨100, _⟩ => ⟨S1x256, .f32⟩
  | .hbm, ⟨101, _⟩ => ⟨S1x128, .f32⟩
  | .hbm, ⟨102, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x256, .f32⟩
  | .local _ .vmem, ⟨11, _⟩ => ⟨S1x256, .f32⟩
  | .local _ .vmem, ⟨12, _⟩ => ⟨S256x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_5 : Ref sig .tc := ⟨.hbm, 65, rfl⟩
abbrev main_v43 : Ref sig .tc := ⟨.hbm, 66, rfl⟩
abbrev main_v44 : Ref sig .tc := ⟨.hbm, 67, rfl⟩
abbrev main_c_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_7 : Ref sig .tc := ⟨.hbm, 76, rfl⟩
abbrev main_v52 : Ref sig .tc := ⟨.hbm, 77, rfl⟩
abbrev main_v53 : Ref sig .tc := ⟨.hbm, 78, rfl⟩
abbrev main_c_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_9 : Ref sig .tc := ⟨.hbm, 86, rfl⟩
abbrev main_v60 : Ref sig .tc := ⟨.hbm, 87, rfl⟩
abbrev main_v61 : Ref sig .tc := ⟨.hbm, 88, rfl⟩
abbrev main_c_10 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_11 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S800000x2_S800000x1_0_0 : S800000x2.Slices ![0, 0] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S800000x2_S800000x1_0_1 : S800000x2.Slices ![0, 1] S800000x1
  bcast_S_S50000x128 : S_.BroadcastsInDim S50000x128 (![] : Fin 0 → Fin S50000x128.rank)
  shapeCasts_S256_S1x256 : S256.ShapeCasts S1x256
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S6x128_S800000x1_S800000x128_1_0_n_n_0_1_1128_wf : GatherDims.WF S6x128 S800000x1 S800000x128 [1] [0] [] [0] [] 1 ![1, 128]
  gather_S3x128_S800000x1_S800000x128_1_0_n_n_0_1_1128_wf : GatherDims.WF S3x128 S800000x1 S800000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S6x128_S800000x1_S800000x128_1_0_n_n_0_1_1128 : GatherDims S6x128 S800000x1 S800000x128 where
  offsetDims := [1]
  collapsedSliceDims := [0]
  operandBatchingDims := []
  startIndicesBatchingDims := []
  startIndexMap := [0]
  indexVectorDim := 1
  sliceSizes := ![1, 128]
  wf := gather_S6x128_S800000x1_S800000x128_1_0_n_n_0_1_1128_wf
def gather_S3x128_S800000x1_S800000x128_1_0_n_n_0_1_1128 : GatherDims S3x128 S800000x1 S800000x128 where
  offsetDims := [1]
  collapsedSliceDims := [0]
  operandBatchingDims := []
  startIndicesBatchingDims := []
  startIndexMap := [0]
  indexVectorDim := 1
  sliceSizes := ![1, 128]
  wf := gather_S3x128_S800000x1_S800000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v33) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v70) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v71) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v72) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v73) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x2 : Shape := ⟨2, ![800000, 2]⟩
abbrev S6x128 : Shape := ⟨2, ![6, 128]⟩
abbrev S3x128 : Shape := ⟨2, ![3, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S800000x1 : Shape := ⟨2, ![800000, 1]⟩
abbrev S_ : Shape := ⟨0, ![]⟩
abbrev S800000x128 : Shape := ⟨2, ![800000, 128]⟩
abbrev S50000x256 : Shape := ⟨2, ![50000, 256]⟩
abbrev S1x256 : Shape := ⟨2, ![1, 256]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x2, .i32⟩
  | .hbm, ⟨3, _⟩ => ⟨S6x128, .f32⟩
  | .hbm, ⟨4, _⟩ => ⟨S3x128, .f32⟩
  | .hbm, ⟨5, _⟩ => ⟨S128x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S6x128, .f32⟩
  | .hbm, ⟨10, _⟩ => ⟨S3x128, .f32⟩
  | .hbm, ⟨11, _⟩ => ⟨S128x256, .f32⟩
  | .hbm, ⟨12, _⟩ => ⟨S256, .f32⟩
  | .hbm, ⟨13, _⟩ => ⟨S256x128, .f32⟩
  | .hbm, ⟨14, _⟩ => ⟨S128, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S800000x1, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S800000x1, .i32⟩
  | .hbm, ⟨31, _⟩ => ⟨S800000, .i32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S800000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S_, .f32⟩
  | .hbm, ⟨61, _⟩ => ⟨S50000x256, .f32⟩
  | .hbm, ⟨62, _⟩ => ⟨S50000x256, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S1x800000, .i32⟩
  | .hbm, ⟨71, _⟩ => ⟨S800000, .i32⟩
  | .hbm, ⟨72, _⟩ => ⟨S1x800000, .i32⟩
  | .hbm, ⟨73, _⟩ => ⟨S800000, .i32⟩
  | .hbm, ⟨74, _⟩ => ⟨S800000x1, .i32⟩
  | .hbm, ⟨75, _⟩ => ⟨S800000, .i32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S800000x1, .i32⟩
  | .hbm, ⟨86, _⟩ => ⟨S800000, .i32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x128, .f32⟩
  | .hbm, ⟨96, _⟩ => ⟨S800000x128, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x128, .f32⟩
  | .hbm, ⟨106, _⟩ => ⟨S800000x128, .f32⟩
  | .hbm, ⟨107, _⟩ => ⟨S_, .f32⟩
  | .hbm, ⟨108, _⟩ => ⟨S50000x128, .f32⟩
  | .hbm, ⟨109, _⟩ => ⟨S800000x1, .i32⟩
  | .hbm, ⟨110, _⟩ => ⟨S50000x128, .f32⟩
  | .hbm, ⟨111, _⟩ => ⟨S50000x256, .f32⟩
  | .hbm, ⟨112, _⟩ => ⟨S1x256, .f32⟩
  | .hbm, ⟨113, _⟩ => ⟨S50000x256, .f32⟩
  | .hbm, ⟨114, _⟩ => ⟨S50000x256, .f32⟩
  | .hbm, ⟨115, _⟩ => ⟨S_, .f32⟩
  | .hbm, ⟨116, _⟩ => ⟨S50000x256, .f32⟩
  | .hbm, ⟨117, _⟩ => ⟨S50000x256, .f32⟩
  | .hbm, ⟨118, _⟩ => ⟨S50000x128, .f32⟩
  | .hbm, ⟨119, _⟩ => ⟨S1x128, .f32⟩
  | .hbm, ⟨120, _⟩ => ⟨S50000x128, .f32⟩
  | .hbm, ⟨121, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call0_cst : Ref sig .tc := ⟨.hbm, 60, rfl⟩
abbrev main_call0_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_cst : Ref sig .tc := ⟨.hbm, 67, rfl⟩
abbrev main_call1_v0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_5 : Ref sig .tc := ⟨.hbm, 76, rfl⟩
abbrev main_v50 : Ref sig .tc := ⟨.hbm, 77, rfl⟩
abbrev main_v51 : Ref sig .tc := ⟨.hbm, 78, rfl⟩
abbrev main_c_6 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_7 : Ref sig .tc := ⟨.hbm, 87, rfl⟩
abbrev main_v59 : Ref sig .tc := ⟨.hbm, 88, rfl⟩
abbrev main_v60 : Ref sig .tc := ⟨.hbm, 89, rfl⟩
abbrev main_c_8 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_9 : Ref sig .tc := ⟨.hbm, 97, rfl⟩
abbrev main_v67 : Ref sig .tc := ⟨.hbm, 98, rfl⟩
abbrev main_v68 : Ref sig .tc := ⟨.hbm, 99, rfl⟩
abbrev main_c_10 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_11 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_call2_cst : Ref sig .tc := ⟨.hbm, 115, rfl⟩
abbrev main_call2_v0 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S800000x2_S800000x1_0_0 : S800000x2.Slices ![0, 0] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S800000x2_S800000x1_0_1 : S800000x2.Slices ![0, 1] S800000x1
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S6x128_S800000x1_S800000x128_1_0_n_n_0_1_1128_wf : GatherDims.WF S6x128 S800000x1 S800000x128 [1] [0] [] [0] [] 1 ![1, 128]
  gather_S3x128_S800000x1_S800000x128_1_0_n_n_0_1_1128_wf : GatherDims.WF S3x128 S800000x1 S800000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def gather_S6x128_S800000x1_S800000x128_1_0_n_n_0_1_1128 : GatherDims S6x128 S800000x1 S800000x128 where
  offsetDims := [1]
  collapsedSliceDims := [0]
  operandBatchingDims := []
  startIndicesBatchingDims := []
  startIndexMap := [0]
  indexVectorDim := 1
  sliceSizes := ![1, 128]
  wf := gather_S6x128_S800000x1_S800000x128_1_0_n_n_0_1_1128_wf
def gather_S3x128_S800000x1_S800000x128_1_0_n_n_0_1_1128 : GatherDims S3x128 S800000x1 S800000x128 where
  offsetDims := [1]
  collapsedSliceDims := [0]
  operandBatchingDims := []
  startIndicesBatchingDims := []
  startIndexMap := [0]
  indexVectorDim := 1
  sliceSizes := ![1, 128]
  wf := gather_S3x128_S800000x1_S800000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.RunNamed.lean ====
/-
  The run of the kernel's program with its result array named.

  The program is a stretch of host operations, a first launch of the perceptron kernel over 25 blocks of rows, a second
  stretch of host operations and a second launch. Every weakly fair execution terminates; at the end the result buffer
  holds what the second launch's write-backs leave in it, folded over the 25 grid points, and the fifteen argument arrays
  are as launched. This is the run the generated frame proves, with one more buffer read off the final thread state.
-/
import proofs.«159926_j50955491999989_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the array of the second launch's output window. -/
theorem result_is_window : Pipeline.arrRef spec1 5 = main_v73 := rfl

set_option backward.isDefEq.respectTransparency.types false in
/-- Every weakly fair execution terminates, nothing faulting; the result buffer ends at the second launch's output array
    after its last grid point, and the arguments end as launched. -/
theorem run : θ_run defs (onTc (τ := τ) (main (F := F))) ⟨m, fun _ => 0, ρ⟩ (fun r => ∀ c : Dev nD,
      r.2.mem ((c.tc : Thread nD τ).loc main_v73) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v73 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.Named

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibTwoLayerRows.lean ====
/-
  A perceptron with one hidden layer, read as a function of rows on the extended reals.

  For a matrix x [M, K], weights w1 [K, H], w2 [H, N] and biases b1 [H], b2 [N], hidden unit h of row p is
  max (sum over d of x (p, d) * w1 (d, h) + b1 h, 0), and output f of row p is the sum over h of that hidden unit times
  w2 (h, f), plus b2 f; a second rectifier may follow. Entry (p, f) reads row p of x and nothing else of x, so a block of
  rows pushed through the perceptron is the same block of rows of the whole matrix pushed through it.

  The perceptron is stated in two spellings. A vector unit narrows every matrix operand to bf16 first (which changes nothing
  on the extended reals), multiplies into a zero accumulator, takes each bias as a row [1, .] spread over the rows, and
  takes the maximum with a spread scalar zero. The host's array operations use dot_general, place each bias vector on axis
  1 of [1, .] and spread it over [M, .], and take the maximum with a spread rank-0 zero. No law of arithmetic is needed:
  at every index both spellings are the same tree of sums, products and maxima.
-/
import Idealize.ShloMosaic.PureOps.Ideal.Laws
import Idealize.ShloMosaic.Lib.ValueIdx
import Idealize.ShloMosaic.Lib.ValueLayout
import Idealize.ShloMosaic.Lib.Pipeline.Value
import proofs.«159926_j50955491999989_1_alg».proof.Proof.LibInnerProducts
import proofs.«159926_j50955491999989_1_alg».proof.Proof.LibInDimRow

noncomputable section

namespace Cert.LibTwoLayerRows

open Idealize.ShloMosaic Idealize.ShloMosaic.ValueIdx Idealize.ShloMosaic.InnerProducts
open scoped BigOperators

variable {M B K H N : ℕ}

/-- Hidden unit h of row p: max (x_p . w1_h + b1 h, 0). -/
def hidden (x : FVec Ideal ⟨2, ![M, K]⟩ .f32) (w1 : FVec Ideal ⟨2, ![K, H]⟩ .f32) (b1 : FVec Ideal ⟨1, ![H]⟩ .f32)
    (p : Fin M) (h : Fin H) : EReal :=
  max ((∑ d : Fin K, x (ix2 p d) * w1 (ix2 d h)) + b1 (ix1 h)) (Ideal.ofBits .f32 0x00000000#32)

/-- Output f of row p: the hidden units of row p against column f of w2, plus b2 f. -/
def out (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32) (p : Fin M) (f : Fin N) : EReal :=
  (∑ h : Fin H, hidden x w1 b1 p h * w2 (ix2 h f)) + b2 (ix1 f)

/-- The perceptron as a whole array. -/
def mlp (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32) : FVec Ideal ⟨2, ![M, N]⟩ .f32 :=
  fun i => out x w1 b1 w2 b2 (i 0) (i 1)

/-- The perceptron followed by a rectifier, as a whole array. -/
def mlpRect (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32) : FVec Ideal ⟨2, ![M, N]⟩ .f32 :=
  fun i => max (out x w1 b1 w2 b2 (i 0) (i 1)) (Ideal.ofBits .f32 0x00000000#32)

theorem mlp_apply (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32) (p : Fin M) (f : Fin N) :
    mlp x w1 b1 w2 b2 (ix2 p f) = out x w1 b1 w2 b2 p f := rfl

theorem mlpRect_apply (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32) (p : Fin M) (f : Fin N) :
    mlpRect x w1 b1 w2 b2 (ix2 p f) = max (out x w1 b1 w2 b2 p f) (Ideal.ofBits .f32 0x00000000#32) := rfl

/-- If row p of the block xb is row q of the matrix X, output f of row p of the block is output f of row q of the matrix. -/
theorem out_row_congr (X : FVec Ideal ⟨2, ![M, K]⟩ .f32) (xb : FVec Ideal ⟨2, ![B, K]⟩ .f32)
    (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32) (p : Fin B) (q : Fin M) (f : Fin N)
    (hrow : ∀ d : Fin K, xb (ix2 p d) = X (ix2 q d)) :
    out xb w1 b1 w2 b2 p f = out X w1 b1 w2 b2 q f := by
  unfold out hidden
  rw [Finset.sum_congr rfl fun h _ => by rw [Finset.sum_congr rfl fun d _ => by rw [hrow d]]]

/-- The same when the block comes with its own copies w1', w2' of the weight matrices. -/
theorem out_congr (X : FVec Ideal ⟨2, ![M, K]⟩ .f32) (xb : FVec Ideal ⟨2, ![B, K]⟩ .f32)
    (w1 w1' : FVec Ideal ⟨2, ![K, H]⟩ .f32) (b1 : FVec Ideal ⟨1, ![H]⟩ .f32)
    (w2 w2' : FVec Ideal ⟨2, ![H, N]⟩ .f32) (b2 : FVec Ideal ⟨1, ![N]⟩ .f32) (p : Fin B) (q : Fin M) (f : Fin N)
    (hrow : ∀ d : Fin K, xb (ix2 p d) = X (ix2 q d)) (hw1 : w1' = w1) (hw2 : w2' = w2) :
    out xb w1' b1 w2' b2 p f = out X w1 b1 w2 b2 q f := by
  subst hw1 hw2
  exact out_row_congr X xb w1' b1 w2' b2 p q f hrow

/-- The perceptron as a vector unit computes it on a block of B rows, read at (p, f). The biases arrive as rows r1 [1, H]
    and r2 [1, N] holding the vectors b1 and b2. -/
theorem unit_out_apply (D1 : DotDims ⟨2, ![B, K]⟩ ⟨2, ![K, H]⟩ ⟨2, ![B, H]⟩) (hD1 : D1 = DotDims.plain B K H)
    (D2 : DotDims ⟨2, ![B, H]⟩ ⟨2, ![H, N]⟩ ⟨2, ![B, N]⟩) (hD2 : D2 = DotDims.plain B H N)
    (prec1 prec2 : Option ContractPrecision)
    (x : FVec Ideal ⟨2, ![B, K]⟩ .f32) (w1 : FVec Ideal ⟨2, ![K, H]⟩ .f32) (r1 : FVec Ideal ⟨2, ![1, H]⟩ .f32)
    (w2 : FVec Ideal ⟨2, ![H, N]⟩ .f32) (r2 : FVec Ideal ⟨2, ![1, N]⟩ .f32)
    (b1 : FVec Ideal ⟨1, ![H]⟩ .f32) (b2 : FVec Ideal ⟨1, ![N]⟩ .f32)
    (hr1 : ∀ h : Fin H, r1 (ix2 (0 : Fin 1) h) = b1 (ix1 h)) (hr2 : ∀ f : Fin N, r2 (ix2 (0 : Fin 1) f) = b2 (ix1 f))
    (hn : FTy.bf16.bits < FTy.f32.bits)
    (hx : (⟨2, ![B, K]⟩ : Shape).ShapeCasts ⟨2, ![B, K]⟩)
    (hc1 : (⟨2, ![1, H]⟩ : Shape).ShapeCasts ⟨2, ![1, H]⟩) (hb1 : (⟨2, ![1, H]⟩ : Shape).Broadcasts ⟨2, ![B, H]⟩)
    (hc2 : (⟨2, ![1, N]⟩ : Shape).ShapeCasts ⟨2, ![1, N]⟩) (hb2 : (⟨2, ![1, N]⟩ : Shape).Broadcasts ⟨2, ![B, N]⟩)
    (p : Fin B) (f : Fin N) :
    addf (matmul D2 prec2
        (truncf .bf16 (maximumf (addf
            (matmul D1 prec1 (truncf .bf16 (shapeCast ⟨2, ![B, K]⟩ x hx) hn) (truncf .bf16 w1 hn)
              (constant (F := Ideal) ⟨2, ![B, H]⟩ .f32 0x00000000#32))
            (broadcastTo ⟨2, ![B, H]⟩ (shapeCast ⟨2, ![1, H]⟩ r1 hc1) hb1))
          (broadcast ⟨2, ![B, H]⟩ (Scalar.ofBits (F := Ideal) .f32 0x00000000#32))) hn)
        (truncf .bf16 w2 hn) (constant (F := Ideal) ⟨2, ![B, N]⟩ .f32 0x00000000#32))
      (broadcastTo ⟨2, ![B, N]⟩ (shapeCast ⟨2, ![1, N]⟩ r2 hc2) hb2) (ix2 p f)
    = out x w1 b1 w2 b2 p f := by
  rw [addf_apply, matmul_zero_apply D2 hD2 prec2 _ _ p f, broadcastTo_1b_ab_apply _ hb2 p f, shapeCast_self r2 hc2, hr2 f]
  unfold out
  refine congrArg (· + b2 (ix1 f)) (Finset.sum_congr rfl fun h _ => ?_)
  refine congrArg (· * w2 (ix2 h f)) ?_
  show max (matmul D1 prec1 (truncf .bf16 (shapeCast ⟨2, ![B, K]⟩ x hx) hn) (truncf .bf16 w1 hn)
        (constant (F := Ideal) ⟨2, ![B, H]⟩ .f32 0x00000000#32) (ix2 p h)
      + broadcastTo ⟨2, ![B, H]⟩ (shapeCast ⟨2, ![1, H]⟩ r1 hc1) hb1 (ix2 p h)) (Ideal.ofBits .f32 0x00000000#32)
    = hidden x w1 b1 p h
  rw [matmul_zero_apply D1 hD1 prec1 _ _ p h, broadcastTo_1b_ab_apply _ hb1 p h, shapeCast_self r1 hc1, shapeCast_self x hx, hr1 h]
  rfl

/-- The same with the vector unit's closing rectifier. -/
theorem unit_outRect_apply (D1 : DotDims ⟨2, ![B, K]⟩ ⟨2, ![K, H]⟩ ⟨2, ![B, H]⟩) (hD1 : D1 = DotDims.plain B K H)
    (D2 : DotDims ⟨2, ![B, H]⟩ ⟨2, ![H, N]⟩ ⟨2, ![B, N]⟩) (hD2 : D2 = DotDims.plain B H N)
    (prec1 prec2 : Option ContractPrecision)
    (x : FVec Ideal ⟨2, ![B, K]⟩ .f32) (w1 : FVec Ideal ⟨2, ![K, H]⟩ .f32) (r1 : FVec Ideal ⟨2, ![1, H]⟩ .f32)
    (w2 : FVec Ideal ⟨2, ![H, N]⟩ .f32) (r2 : FVec Ideal ⟨2, ![1, N]⟩ .f32)
    (b1 : FVec Ideal ⟨1, ![H]⟩ .f32) (b2 : FVec Ideal ⟨1, ![N]⟩ .f32)
    (hr1 : ∀ h : Fin H, r1 (ix2 (0 : Fin 1) h) = b1 (ix1 h)) (hr2 : ∀ f : Fin N, r2 (ix2 (0 : Fin 1) f) = b2 (ix1 f))
    (hn : FTy.bf16.bits < FTy.f32.bits)
    (hx : (⟨2, ![B, K]⟩ : Shape).ShapeCasts ⟨2, ![B, K]⟩)
    (hc1 : (⟨2, ![1, H]⟩ : Shape).ShapeCasts ⟨2, ![1, H]⟩) (hb1 : (⟨2, ![1, H]⟩ : Shape).Broadcasts ⟨2, ![B, H]⟩)
    (hc2 : (⟨2, ![1, N]⟩ : Shape).ShapeCasts ⟨2, ![1, N]⟩) (hb2 : (⟨2, ![1, N]⟩ : Shape).Broadcasts ⟨2, ![B, N]⟩)
    (p : Fin B) (f : Fin N) :
    maximumf (addf (matmul D2 prec2
        (truncf .bf16 (maximumf (addf
            (matmul D1 prec1 (truncf .bf16 (shapeCast ⟨2, ![B, K]⟩ x hx) hn) (truncf .bf16 w1 hn)
              (constant (F := Ideal) ⟨2, ![B, H]⟩ .f32 0x00000000#32))
            (broadcastTo ⟨2, ![B, H]⟩ (shapeCast ⟨2, ![1, H]⟩ r1 hc1) hb1))
          (broadcast ⟨2, ![B, H]⟩ (Scalar.ofBits (F := Ideal) .f32 0x00000000#32))) hn)
        (truncf .bf16 w2 hn) (constant (F := Ideal) ⟨2, ![B, N]⟩ .f32 0x00000000#32))
      (broadcastTo ⟨2, ![B, N]⟩ (shapeCast ⟨2, ![1, N]⟩ r2 hc2) hb2))
      (broadcast ⟨2, ![B, N]⟩ (Scalar.ofBits (F := Ideal) .f32 0x00000000#32)) (ix2 p f)
    = max (out x w1 b1 w2 b2 p f) (Ideal.ofBits .f32 0x00000000#32) := by
  rw [maximumf_apply, unit_out_apply D1 hD1 D2 hD2 prec1 prec2 x w1 r1 w2 r2 b1 b2 hr1 hr2 hn hx hc1 hb1 hc2 hb2 p f,
    broadcast_apply]
  rfl

/-- A bias vector as the host spreads it: placed on axis 1 of [1, N], then spread over [M, N]. -/
theorem host_bias_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (f : Fin N) :
    broadcastInDim ⟨2, ![M, N]⟩ ![0, 1] h2 (broadcastInDim ⟨2, ![1, N]⟩ ![1] h1 b) (ix2 p f) = b (ix1 f) := by
  rw [Cert.LibInDimRow.inDim_1b_ab_apply _ h2 p f, Cert.LibInDimRow.inDim_b_1b_apply b h1 0 f]

/-- A rank-0 value spread over a matrix reads that value everywhere. -/
theorem host_scalar_apply (v : FVec Ideal ⟨0, ![]⟩ .f32)
    (h0 : (⟨0, ![]⟩ : Shape).BroadcastsInDim ⟨2, ![M, N]⟩ ![]) (i : (⟨2, ![M, N]⟩ : Shape).Idx) :
    broadcastInDim ⟨2, ![M, N]⟩ ![] h0 v i = v ix0 :=
  broadcastInDim_apply _ h0 v i ix0 fun ax => ax.elim0

/-- The perceptron as the host's array operations compute it. -/
theorem host_mlp (D1 : DotDims ⟨2, ![M, K]⟩ ⟨2, ![K, H]⟩ ⟨2, ![M, H]⟩) (hD1 : D1 = DotDims.plain M K H)
    (D2 : DotDims ⟨2, ![M, H]⟩ ⟨2, ![H, N]⟩ ⟨2, ![M, N]⟩) (hD2 : D2 = DotDims.plain M H N)
    (prec1 prec2 : Option ContractPrecision)
    (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32)
    (h11 : (⟨1, ![H]⟩ : Shape).BroadcastsInDim ⟨2, ![1, H]⟩ ![1])
    (h12 : (⟨2, ![1, H]⟩ : Shape).BroadcastsInDim ⟨2, ![M, H]⟩ ![0, 1])
    (h10 : (⟨0, ![]⟩ : Shape).BroadcastsInDim ⟨2, ![M, H]⟩ ![])
    (h21 : (⟨1, ![N]⟩ : Shape).BroadcastsInDim ⟨2, ![1, N]⟩ ![1])
    (h22 : (⟨2, ![1, N]⟩ : Shape).BroadcastsInDim ⟨2, ![M, N]⟩ ![0, 1]) :
    addf (Host.dotGeneral D2 prec2
        (maximumf (addf (Host.dotGeneral D1 prec1 x w1)
            (broadcastInDim ⟨2, ![M, H]⟩ ![0, 1] h12 (broadcastInDim ⟨2, ![1, H]⟩ ![1] h11 b1)))
          (broadcastInDim ⟨2, ![M, H]⟩ ![] h10 (constant (F := Ideal) ⟨0, ![]⟩ .f32 0x00000000#32))) w2)
      (broadcastInDim ⟨2, ![M, N]⟩ ![0, 1] h22 (broadcastInDim ⟨2, ![1, N]⟩ ![1] h21 b2))
    = mlp x w1 b1 w2 b2 := by
  funext i
  obtain ⟨p, f, rfl⟩ : ∃ (p : Fin M) (f : Fin N), i = ix2 p f := ⟨i 0, i 1, eq_ix2 i⟩
  rw [addf_apply, dotGeneral_apply D2 hD2 prec2 _ w2 p f, host_bias_apply b2 h21 h22 p f, mlp_apply]
  unfold out
  refine congrArg (· + b2 (ix1 f)) (Finset.sum_congr rfl fun h _ => ?_)
  refine congrArg (· * w2 (ix2 h f)) ?_
  rw [maximumf_apply, addf_apply, dotGeneral_apply D1 hD1 prec1 x w1 p h, host_bias_apply b1 h11 h12 p h,
    host_scalar_apply _ h10]
  rfl

/-- The same followed by the host's rectifier. -/
theorem host_mlpRect (D1 : DotDims ⟨2, ![M, K]⟩ ⟨2, ![K, H]⟩ ⟨2, ![M, H]⟩) (hD1 : D1 = DotDims.plain M K H)
    (D2 : DotDims ⟨2, ![M, H]⟩ ⟨2, ![H, N]⟩ ⟨2, ![M, N]⟩) (hD2 : D2 = DotDims.plain M H N)
    (prec1 prec2 : Option ContractPrecision)
    (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32)
    (h11 : (⟨1, ![H]⟩ : Shape).BroadcastsInDim ⟨2, ![1, H]⟩ ![1])
    (h12 : (⟨2, ![1, H]⟩ : Shape).BroadcastsInDim ⟨2, ![M, H]⟩ ![0, 1])
    (h10 : (⟨0, ![]⟩ : Shape).BroadcastsInDim ⟨2, ![M, H]⟩ ![])
    (h21 : (⟨1, ![N]⟩ : Shape).BroadcastsInDim ⟨2, ![1, N]⟩ ![1])
    (h22 : (⟨2, ![1, N]⟩ : Shape).BroadcastsInDim ⟨2, ![M, N]⟩ ![0, 1])
    (h20 : (⟨0, ![]⟩ : Shape).BroadcastsInDim ⟨2, ![M, N]⟩ ![]) :
    maximumf (addf (Host.dotGeneral D2 prec2
        (maximumf (addf (Host.dotGeneral D1 prec1 x w1)
            (broadcastInDim ⟨2, ![M, H]⟩ ![0, 1] h12 (broadcastInDim ⟨2, ![1, H]⟩ ![1] h11 b1)))
          (broadcastInDim ⟨2, ![M, H]⟩ ![] h10 (constant (F := Ideal) ⟨0, ![]⟩ .f32 0x00000000#32))) w2)
      (broadcastInDim ⟨2, ![M, N]⟩ ![0, 1] h22 (broadcastInDim ⟨2, ![1, N]⟩ ![1] h21 b2)))
      (broadcastInDim ⟨2, ![M, N]⟩ ![] h20 (constant (F := Ideal) ⟨0, ![]⟩ .f32 0x00000000#32))
    = mlpRect x w1 b1 w2 b2 := by
  funext i
  rw [maximumf_apply, host_mlp D1 hD1 D2 hD2 prec1 prec2 x w1 b1 w2 b2 h11 h12 h10 h21 h22, host_scalar_apply _ h20]
  rfl

end Cert.LibTwoLayerRows

end
-- ==== Proof.Launch0.lean ====
/-
  What the first launch of the perceptron kernel leaves in its output array.

  The launch runs over 25 grid points. Point t stages rows 2000 t .. 2000 t + 1999 of the input matrix [50000, 128], the
  whole of both weight matrices and both bias rows, pushes the 2000 rows through the perceptron and a closing rectifier,
  and writes the 2000 result rows back to rows 2000 t .. 2000 t + 1999 of the output. An output entry reads one row of
  the input, so the 25 blocks written back are the 25 row blocks of the perceptron of the whole matrix, and together
  they cover every row: the output array ends as the perceptron, rectified, of the whole input matrix. All of it is stated at
  arbitrary contents of the buffers when the launch is entered.
-/
import proofs.«159926_j50955491999989_1_alg».proof.Proof.Gen.KernelIdeal.Frame
import proofs.«159926_j50955491999989_1_alg».proof.Proof.LibTwoLayerRows
import Idealize.ShloMosaic.Lib.Pipeline.Value
import Idealize.ShloMosaic.Lib.ValueIdx

set_option maxRecDepth 16384

noncomputable section

namespace Cert.KernelIdeal.Launch0

open Cert.KernelIdeal Cert.KernelIdeal.Gen Idealize.ShloMosaic Idealize.ShloMosaic.TcCoe Idealize.SL.Sem
open Idealize.ShloMosaic.ValueIdx Cert.LibTwoLayerRows
open Idealize.ShloMosaic.Pipeline (Dat)

variable (V : (c : Dev nD) → (b : Ref sig .tc) → Buf (Elt Ideal) ((c : Thread nD τ).loc b))

/-- Every load and the store of the body go through the whole staged block. -/
theorem zero_offsets : (![0, 0] : Fin 2 → Nat) = fun _ => 0 := funext fun a => by fin_cases a <;> rfl

/-- One point's arithmetic at entry (p, f) of its block: the perceptron's output f of row p, rectified, when the two
    staged bias rows hold the vectors b1 and b2. -/
theorem payload_apply (x0 : Vec Ideal S2000x128 .f32) (x1 : Vec Ideal S128x256 .f32) (x2 : Vec Ideal S1x256 .f32)
    (x3 : Vec Ideal S256x128 .f32) (x4 : Vec Ideal S1x128 .f32)
    (b1 : FVec Ideal ⟨1, ![256]⟩ .f32) (b2 : FVec Ideal ⟨1, ![128]⟩ .f32)
    (hr1 : ∀ h : Fin 256, x2 (ix2 (0 : Fin 1) h) = b1 (ix1 h)) (hr2 : ∀ f : Fin 128, x4 (ix2 (0 : Fin 1) f) = b2 (ix1 f))
    (p : Fin 2000) (f : Fin 128) :
    k0_pay1 x0 x1 x2 x3 x4 (ix2 p f)
      = max (out (M := 2000) x0 x1 b1 x3 b2 p f) (Ideal.ofBits .f32 0x00000000#32) :=
  unit_outRect_apply dot_S2000x128_S128x256_S2000x256_1_0_0_1_n_n rfl dot_S2000x256_S256x128_S2000x128_1_0_0_1_n_n rfl none none
    x0 x1 x2 x3 x4 b1 b2 hr1 hr2 bitsLt_bf16_f32 shapeCasts_S2000x128_S2000x128 shapeCasts_S1x256_S1x256
    broadcasts_S1x256_S2000x256 shapeCasts_S1x128_S1x128 broadcasts_S1x128_S2000x128 p f

/-- The printed index maps over the 25 points: the row windows are at block row t, every other window at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row of the output is some point's. -/
theorem index_onto : ∀ q : Fin 25, ∃ t : Fin cfg0.N, win0_5.index t = ![q.val, 0] :=
  (by decide +kernel : ∀ q : Fin 25, ∃ t : Fin grid0.N, win0_5.index t = ![q.val, 0])

/-- A window staged whole: its block at any point is its array. -/
theorem whole_block_1 (c : Dev nD) (t : Fin cfg0.N) : iblk0 V c 1 t = (V c (Pipeline.arrRef spec0 1) : S128x256.Idx → EReal) := by
  obtain ⟨-, -, e0, e1, -⟩ := index_maps t
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

theorem whole_block_2 (c : Dev nD) (t : Fin cfg0.N) : iblk0 V c 2 t = (V c (Pipeline.arrRef spec0 2) : S1x256.Idx → EReal) := by
  obtain ⟨-, -, -, -, e0, e1, -⟩ := index_maps t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

theorem whole_block_3 (c : Dev nD) (t : Fin cfg0.N) : iblk0 V c 3 t = (V c (Pipeline.arrRef spec0 3) : S256x128.Idx → EReal) := by
  obtain ⟨-, -, -, -, -, -, e0, e1, -⟩ := index_maps t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega

theorem whole_block_4 (c : Dev nD) (t : Fin cfg0.N) : iblk0 V c 4 t = (V c (Pipeline.arrRef spec0 4) : S1x128.Idx → EReal) := by
  obtain ⟨-, -, -, -, -, -, -, -, e0, e1, -⟩ := index_maps t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Row p of point t's input block is row 2000 t + p of the input matrix. -/
theorem input_row (c : Dev nD) (t : Fin cfg0.N) (p : Fin 2000) (q : Fin 50000) (hq : q.val = t.val * 2000 + p.val) (d : Fin 128) :
    iblk0 V c 0 t (ix2 p d) = (V c (Pipeline.arrRef spec0 0) : S50000x128.Idx → EReal) (ix2 q d) := by
  obtain ⟨e0, e1, -⟩ := index_maps t
  show V c (Pipeline.arrRef spec0 0) (((cfg0.win 0).blk t).view.emb (ix2 p d)) = V c (Pipeline.arrRef spec0 0) (ix2 q d)
  refine congrArg _ (funext fun a => Fin.ext ?_)
  match a with
  | ⟨0, _⟩ => show win0_0.index t (0 : Fin 2) * 2000 + 1 * p.val = q.val; omega
  | ⟨1, _⟩ => show win0_0.index t (1 : Fin 2) * 128 + 1 * d.val = d.val; omega

/-- Entry (p, f) of point t's output block is entry (2000 t + p, f) of the output array. -/
theorem output_entry (t : Fin cfg0.N) (p : Fin 2000) (q : Fin 50000) (hq : q.val = t.val * 2000 + p.val) (f : Fin 128) :
    (((cfg0.win 5).blk t).view.emb (ix2 p f) : S50000x128.Idx) = ix2 q f := by
  obtain ⟨-, -, -, -, -, -, -, -, -, -, e0, e1⟩ := index_maps t
  refine funext fun a => Fin.ext ?_
  match a with
  | ⟨0, _⟩ => show win0_5.index t (0 : Fin 2) * 2000 + 1 * p.val = q.val; omega
  | ⟨1, _⟩ => show win0_5.index t (1 : Fin 2) * 128 + 1 * f.val = f.val; omega

/-- What point t writes back is block t of the perceptron, rectified, of the whole input matrix, for bias vectors b1, b2 that the
    two bias-row arrays hold. -/
theorem flushed_eq (c : Dev nD) (b1 : FVec Ideal ⟨1, ![256]⟩ .f32) (b2 : FVec Ideal ⟨1, ![128]⟩ .f32)
    (hr1 : ∀ h : Fin 256, (V c (Pipeline.arrRef spec0 2) : S1x256.Idx → EReal) (ix2 (0 : Fin 1) h) = b1 (ix1 h))
    (hr2 : ∀ f : Fin 128, (V c (Pipeline.arrRef spec0 4) : S1x128.Idx → EReal) (ix2 (0 : Fin 1) f) = b2 (ix1 f))
    (t : Fin cfg0.N) :
    (dat0 V c).flushed 5 t = ((cfg0.win 5).blk t).view.read (Elt Ideal)
      (mlpRect (M := 50000) (K := 128) (H := 256) (N := 128) (V c (Pipeline.arrRef spec0 0)) (V c (Pipeline.arrRef spec0 1)) b1
        (V c (Pipeline.arrRef spec0 3)) b2) := by
  show (cfg0.win 5).cut (grid0.coords t) ((dat0 V c).after 5 t) = _
  rw [after0_5]
  unfold out0_5
  rw [View.canon_unit_zero zero_offsets]
  simp only [View.ld_unit_zero (S := S2000x128) zero_offsets, View.ld_unit_zero (S := S128x256) zero_offsets,
    View.ld_unit_zero (S := S1x256) zero_offsets, View.ld_unit_zero (S := S256x128) zero_offsets,
    View.ld_unit_zero (S := S1x128) zero_offsets]
  funext j
  obtain ⟨p, f, rfl⟩ : ∃ (p : Fin 2000) (f : Fin 128), j = ix2 p f := ⟨j 0, j 1, eq_ix2 j⟩
  have hlt : t.val * 2000 + p.val < 50000 := by
    have ht : t.val < 25 := t.isLt
    have hp : p.val < 2000 := p.isLt
    omega
  show k0_pay1 (iblk0 V c 0 t) (iblk0 V c 1 t) (iblk0 V c 2 t) (iblk0 V c 3 t) (iblk0 V c 4 t) (ix2 p f)
    = mlpRect (M := 50000) (K := 128) (H := 256) (N := 128) (V c (Pipeline.arrRef spec0 0)) (V c (Pipeline.arrRef spec0 1)) b1
        (V c (Pipeline.arrRef spec0 3)) b2 (((cfg0.win 5).blk t).view.emb (ix2 p f))
  refine (payload_apply (iblk0 V c 0 t) (iblk0 V c 1 t) (iblk0 V c 2 t) (iblk0 V c 3 t) (iblk0 V c 4 t) b1 b2
    (fun h => (congrFun (whole_block_2 V c t) (ix2 (0 : Fin 1) h)).trans (hr1 h))
    (fun g => (congrFun (whole_block_4 V c t) (ix2 (0 : Fin 1) g)).trans (hr2 g)) p f).trans ?_
  rw [output_entry t p ⟨t.val * 2000 + p.val, hlt⟩ rfl f, mlpRect_apply]
  exact congrArg (max · (Ideal.ofBits .f32 0x00000000#32)) (out_congr (M := 50000) (V c (Pipeline.arrRef spec0 0)) (iblk0 V c 0 t)
    (V c (Pipeline.arrRef spec0 1)) (iblk0 V c 1 t) b1 (V c (Pipeline.arrRef spec0 3)) (iblk0 V c 3 t) b2 p ⟨t.val * 2000 + p.val, hlt⟩ f
    (fun d => input_row V c t p ⟨t.val * 2000 + p.val, hlt⟩ rfl d) (whole_block_1 V c t) (whole_block_3 V c t))

/-- An index of the output array is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v36).slice (win0_5.rect t)).set ↔ _
  rw [View.set_slice_whole, Rect.mem_set_unit]
  exact Iff.rfl

/-- Every entry of the output array is in the block of the point that owns its row: point (row / 2000). -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := index_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The output array after the launch's last point: the perceptron, rectified, of the whole input matrix. -/
theorem final (c : Dev nD) (b1 : FVec Ideal ⟨1, ![256]⟩ .f32) (b2 : FVec Ideal ⟨1, ![128]⟩ .f32)
    (hr1 : ∀ h : Fin 256, (V c (Pipeline.arrRef spec0 2) : S1x256.Idx → EReal) (ix2 (0 : Fin 1) h) = b1 (ix1 h))
    (hr2 : ∀ f : Fin 128, (V c (Pipeline.arrRef spec0 4) : S1x128.Idx → EReal) (ix2 (0 : Fin 1) f) = b2 (ix1 f)) :
    (dat0 V c).arrAt 5 cfg0.N
      = mlpRect (M := 50000) (K := 128) (H := 256) (N := 128) (V c (Pipeline.arrRef spec0 0)) (V c (Pipeline.arrRef spec0 1)) b1
        (V c (Pipeline.arrRef spec0 3)) b2 :=
  (dat0 V c).arrAt_eq_of_cover 5 _ (fun t _ => flushed_eq V c b1 b2 hr1 hr2 t) covered

end Cert.KernelIdeal.Launch0

end
-- ==== Proof.Launch1.lean ====
/-
  What the second launch of the perceptron kernel leaves in its output array.

  The launch runs over 25 grid points. Point t stages rows 2000 t .. 2000 t + 1999 of the input matrix [50000, 128], the
  whole of both weight matrices and both bias rows, pushes the 2000 rows through the perceptron,
  and writes the 2000 result rows back to rows 2000 t .. 2000 t + 1999 of the output. An output entry reads one row of
  the input, so the 25 blocks written back are the 25 row blocks of the perceptron of the whole matrix, and together
  they cover every row: the output array ends as the perceptron of the whole input matrix. All of it is stated at
  arbitrary contents of the buffers when the launch is entered.
-/
import proofs.«159926_j50955491999989_1_alg».proof.Proof.Gen.KernelIdeal.Frame
import proofs.«159926_j50955491999989_1_alg».proof.Proof.LibTwoLayerRows
import Idealize.ShloMosaic.Lib.Pipeline.Value
import Idealize.ShloMosaic.Lib.ValueIdx

set_option maxRecDepth 16384

noncomputable section

namespace Cert.KernelIdeal.Launch1

open Cert.KernelIdeal Cert.KernelIdeal.Gen Idealize.ShloMosaic Idealize.ShloMosaic.TcCoe Idealize.SL.Sem
open Idealize.ShloMosaic.ValueIdx Cert.LibTwoLayerRows
open Idealize.ShloMosaic.Pipeline (Dat)

variable (V : (c : Dev nD) → (b : Ref sig .tc) → Buf (Elt Ideal) ((c : Thread nD τ).loc b))

/-- Every load and the store of the body go through the whole staged block. -/
theorem zero_offsets : (![0, 0] : Fin 2 → Nat) = fun _ => 0 := funext fun a => by fin_cases a <;> rfl

/-- One point's arithmetic at entry (p, f) of its block: the perceptron's output f of row p, when the two
    staged bias rows hold the vectors b1 and b2. -/
theorem payload_apply (x0 : Vec Ideal S2000x128 .f32) (x1 : Vec Ideal S128x256 .f32) (x2 : Vec Ideal S1x256 .f32)
    (x3 : Vec Ideal S256x128 .f32) (x4 : Vec Ideal S1x128 .f32)
    (b1 : FVec Ideal ⟨1, ![256]⟩ .f32) (b2 : FVec Ideal ⟨1, ![128]⟩ .f32)
    (hr1 : ∀ h : Fin 256, x2 (ix2 (0 : Fin 1) h) = b1 (ix1 h)) (hr2 : ∀ f : Fin 128, x4 (ix2 (0 : Fin 1) f) = b2 (ix1 f))
    (p : Fin 2000) (f : Fin 128) :
    k1_pay1 x0 x1 x2 x3 x4 (ix2 p f)
      = out (M := 2000) x0 x1 b1 x3 b2 p f :=
  unit_out_apply dot_S2000x128_S128x256_S2000x256_1_0_0_1_n_n rfl dot_S2000x256_S256x128_S2000x128_1_0_0_1_n_n rfl none none
    x0 x1 x2 x3 x4 b1 b2 hr1 hr2 bitsLt_bf16_f32 shapeCasts_S2000x128_S2000x128 shapeCasts_S1x256_S1x256
    broadcasts_S1x256_S2000x256 shapeCasts_S1x128_S1x128 broadcasts_S1x128_S2000x128 p f

/-- The printed index maps over the 25 points: the row windows are at block row t, every other window at block (0, 0). -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block row of the output is some point's. -/
theorem index_onto : ∀ q : Fin 25, ∃ t : Fin cfg1.N, win1_5.index t = ![q.val, 0] :=
  (by decide +kernel : ∀ q : Fin 25, ∃ t : Fin grid1.N, win1_5.index t = ![q.val, 0])

/-- A window staged whole: its block at any point is its array. -/
theorem whole_block_1 (c : Dev nD) (t : Fin cfg1.N) : iblk1 V c 1 t = (V c (Pipeline.arrRef spec1 1) : S128x256.Idx → EReal) := by
  obtain ⟨-, -, e0, e1, -⟩ := index_maps t
  funext y
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 256 + 1 * (y 1).val = (y 1).val; omega

theorem whole_block_2 (c : Dev nD) (t : Fin cfg1.N) : iblk1 V c 2 t = (V c (Pipeline.arrRef spec1 2) : S1x256.Idx → EReal) := by
  obtain ⟨-, -, -, -, e0, e1, -⟩ := index_maps t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 256 + 1 * (y 1).val = (y 1).val; omega

theorem whole_block_3 (c : Dev nD) (t : Fin cfg1.N) : iblk1 V c 3 t = (V c (Pipeline.arrRef spec1 3) : S256x128.Idx → EReal) := by
  obtain ⟨-, -, -, -, -, -, e0, e1, -⟩ := index_maps t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 256 + 1 * (y 0).val = (y 0).val; omega
  | ⟨1, _⟩ => show win1_3.index t (1 : Fin 2) * 128 + 1 * (y 1).val = (y 1).val; omega

theorem whole_block_4 (c : Dev nD) (t : Fin cfg1.N) : iblk1 V c 4 t = (V c (Pipeline.arrRef spec1 4) : S1x128.Idx → EReal) := by
  obtain ⟨-, -, -, -, -, -, -, -, e0, e1, -⟩ := index_maps t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Row p of point t's input block is row 2000 t + p of the input matrix. -/
theorem input_row (c : Dev nD) (t : Fin cfg1.N) (p : Fin 2000) (q : Fin 50000) (hq : q.val = t.val * 2000 + p.val) (d : Fin 128) :
    iblk1 V c 0 t (ix2 p d) = (V c (Pipeline.arrRef spec1 0) : S50000x128.Idx → EReal) (ix2 q d) := by
  obtain ⟨e0, e1, -⟩ := index_maps t
  show V c (Pipeline.arrRef spec1 0) (((cfg1.win 0).blk t).view.emb (ix2 p d)) = V c (Pipeline.arrRef spec1 0) (ix2 q d)
  refine congrArg _ (funext fun a => Fin.ext ?_)
  match a with
  | ⟨0, _⟩ => show win1_0.index t (0 : Fin 2) * 2000 + 1 * p.val = q.val; omega
  | ⟨1, _⟩ => show win1_0.index t (1 : Fin 2) * 128 + 1 * d.val = d.val; omega

/-- Entry (p, f) of point t's output block is entry (2000 t + p, f) of the output array. -/
theorem output_entry (t : Fin cfg1.N) (p : Fin 2000) (q : Fin 50000) (hq : q.val = t.val * 2000 + p.val) (f : Fin 128) :
    (((cfg1.win 5).blk t).view.emb (ix2 p f) : S50000x128.Idx) = ix2 q f := by
  obtain ⟨-, -, -, -, -, -, -, -, -, -, e0, e1⟩ := index_maps t
  refine funext fun a => Fin.ext ?_
  match a with
  | ⟨0, _⟩ => show win1_5.index t (0 : Fin 2) * 2000 + 1 * p.val = q.val; omega
  | ⟨1, _⟩ => show win1_5.index t (1 : Fin 2) * 128 + 1 * f.val = f.val; omega

/-- What point t writes back is block t of the perceptron of the whole input matrix, for bias vectors b1, b2 that the
    two bias-row arrays hold. -/
theorem flushed_eq (c : Dev nD) (b1 : FVec Ideal ⟨1, ![256]⟩ .f32) (b2 : FVec Ideal ⟨1, ![128]⟩ .f32)
    (hr1 : ∀ h : Fin 256, (V c (Pipeline.arrRef spec1 2) : S1x256.Idx → EReal) (ix2 (0 : Fin 1) h) = b1 (ix1 h))
    (hr2 : ∀ f : Fin 128, (V c (Pipeline.arrRef spec1 4) : S1x128.Idx → EReal) (ix2 (0 : Fin 1) f) = b2 (ix1 f))
    (t : Fin cfg1.N) :
    (dat1 V c).flushed 5 t = ((cfg1.win 5).blk t).view.read (Elt Ideal)
      (mlp (M := 50000) (K := 128) (H := 256) (N := 128) (V c (Pipeline.arrRef spec1 0)) (V c (Pipeline.arrRef spec1 1)) b1
        (V c (Pipeline.arrRef spec1 3)) b2) := by
  show (cfg1.win 5).cut (grid1.coords t) ((dat1 V c).after 5 t) = _
  rw [after1_5]
  unfold out1_5
  rw [View.canon_unit_zero zero_offsets]
  simp only [View.ld_unit_zero (S := S2000x128) zero_offsets, View.ld_unit_zero (S := S128x256) zero_offsets,
    View.ld_unit_zero (S := S1x256) zero_offsets, View.ld_unit_zero (S := S256x128) zero_offsets,
    View.ld_unit_zero (S := S1x128) zero_offsets]
  funext j
  obtain ⟨p, f, rfl⟩ : ∃ (p : Fin 2000) (f : Fin 128), j = ix2 p f := ⟨j 0, j 1, eq_ix2 j⟩
  have hlt : t.val * 2000 + p.val < 50000 := by
    have ht : t.val < 25 := t.isLt
    have hp : p.val < 2000 := p.isLt
    omega
  show k1_pay1 (iblk1 V c 0 t) (iblk1 V c 1 t) (iblk1 V c 2 t) (iblk1 V c 3 t) (iblk1 V c 4 t) (ix2 p f)
    = mlp (M := 50000) (K := 128) (H := 256) (N := 128) (V c (Pipeline.arrRef spec1 0)) (V c (Pipeline.arrRef spec1 1)) b1
        (V c (Pipeline.arrRef spec1 3)) b2 (((cfg1.win 5).blk t).view.emb (ix2 p f))
  refine (payload_apply (iblk1 V c 0 t) (iblk1 V c 1 t) (iblk1 V c 2 t) (iblk1 V c 3 t) (iblk1 V c 4 t) b1 b2
    (fun h => (congrFun (whole_block_2 V c t) (ix2 (0 : Fin 1) h)).trans (hr1 h))
    (fun g => (congrFun (whole_block_4 V c t) (ix2 (0 : Fin 1) g)).trans (hr2 g)) p f).trans ?_
  rw [output_entry t p ⟨t.val * 2000 + p.val, hlt⟩ rfl f, mlp_apply]
  exact (out_congr (M := 50000) (V c (Pipeline.arrRef spec1 0)) (iblk1 V c 0 t)
    (V c (Pipeline.arrRef spec1 1)) (iblk1 V c 1 t) b1 (V c (Pipeline.arrRef spec1 3)) (iblk1 V c 3 t) b2 p ⟨t.val * 2000 + p.val, hlt⟩ f
    (fun d => input_row V c t p ⟨t.val * 2000 + p.val, hlt⟩ rfl d) (whole_block_1 V c t) (whole_block_3 V c t))

/-- An index of the output array is in point t's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v73).slice (win1_5.rect t)).set ↔ _
  rw [View.set_slice_whole, Rect.mem_set_unit]
  exact Iff.rfl

/-- Every entry of the output array is in the block of the point that owns its row: point (row / 2000). -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := index_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the launch's last point: the perceptron of the whole input matrix. -/
theorem final (c : Dev nD) (b1 : FVec Ideal ⟨1, ![256]⟩ .f32) (b2 : FVec Ideal ⟨1, ![128]⟩ .f32)
    (hr1 : ∀ h : Fin 256, (V c (Pipeline.arrRef spec1 2) : S1x256.Idx → EReal) (ix2 (0 : Fin 1) h) = b1 (ix1 h))
    (hr2 : ∀ f : Fin 128, (V c (Pipeline.arrRef spec1 4) : S1x128.Idx → EReal) (ix2 (0 : Fin 1) f) = b2 (ix1 f)) :
    (dat1 V c).arrAt 5 cfg1.N
      = mlp (M := 50000) (K := 128) (H := 256) (N := 128) (V c (Pipeline.arrRef spec1 0)) (V c (Pipeline.arrRef spec1 1)) b1
        (V c (Pipeline.arrRef spec1 3)) b2 :=
  (dat1 V c).arrAt_eq_of_cover 5 _ (fun t _ => flushed_eq V c b1 b2 hr1 hr2 t) covered

end Cert.KernelIdeal.Launch1

end
-- ==== Proof.Network.lean ====
/-
  The network both programs compute, as one function of the fifteen argument arrays.

  A layer first builds one message per edge: the source node's feature row plus two embedding rows looked up by the edge's
  two attributes. It adds every message into the row of the edge's target node (the aggregation: gathers, then a
  scatter-add into a zero matrix), and pushes the aggregated matrix [50000, 128] through a perceptron with one hidden
  layer of 256 rectified units. The network is two such layers with a rectifier between them. The aggregation is the same
  chain of host array operations in both programs, so it is kept as one opaque function of the node features, the edge
  index, the edge attributes and the two embedding tables; only the perceptron is read entry by entry.
-/
import proofs.«159926_j50955491999989_1_alg».proof.Proof.Gen.ReferenceIdeal.Read
import proofs.«159926_j50955491999989_1_alg».proof.Proof.LibTwoLayerRows

noncomputable section

namespace Cert.Gin

open Idealize.ShloMosaic Cert.LibTwoLayerRows
open Cert.ReferenceIdeal (S50000x128 S2x800000 S800000x2 S6x128 S3x128 S128x256 S256 S256x128 S128)

/-- Messages summed at their target nodes: row n is the sum, over the edges into node n, of the source node's row plus the
    two embedding rows the edge's attributes select. -/
def aggregate (x : (⟨S50000x128, .f32⟩ : BufTy).Contents (Elt Ideal)) (ei : (⟨S2x800000, .i32⟩ : BufTy).Contents (Elt Ideal))
    (ea : (⟨S800000x2, .i32⟩ : BufTy).Contents (Elt Ideal)) (e1 : (⟨S6x128, .f32⟩ : BufTy).Contents (Elt Ideal))
    (e2 : (⟨S3x128, .f32⟩ : BufTy).Contents (Elt Ideal)) : FVec Ideal ⟨2, ![50000, 128]⟩ .f32 :=
  Cert.ReferenceIdeal.Read.val_main_v33 (F := Ideal) x ei ea e1 e2

/-- The two-layer network: aggregate, perceptron, rectifier; aggregate again, perceptron. -/
def network (x : (⟨S50000x128, .f32⟩ : BufTy).Contents (Elt Ideal)) (ei : (⟨S2x800000, .i32⟩ : BufTy).Contents (Elt Ideal))
    (ea : (⟨S800000x2, .i32⟩ : BufTy).Contents (Elt Ideal))
    (e10 : (⟨S6x128, .f32⟩ : BufTy).Contents (Elt Ideal)) (e20 : (⟨S3x128, .f32⟩ : BufTy).Contents (Elt Ideal))
    (w10 : (⟨S128x256, .f32⟩ : BufTy).Contents (Elt Ideal)) (b10 : (⟨S256, .f32⟩ : BufTy).Contents (Elt Ideal))
    (w20 : (⟨S256x128, .f32⟩ : BufTy).Contents (Elt Ideal)) (b20 : (⟨S128, .f32⟩ : BufTy).Contents (Elt Ideal))
    (e11 : (⟨S6x128, .f32⟩ : BufTy).Contents (Elt Ideal)) (e21 : (⟨S3x128, .f32⟩ : BufTy).Contents (Elt Ideal))
    (w11 : (⟨S128x256, .f32⟩ : BufTy).Contents (Elt Ideal)) (b11 : (⟨S256, .f32⟩ : BufTy).Contents (Elt Ideal))
    (w21 : (⟨S256x128, .f32⟩ : BufTy).Contents (Elt Ideal)) (b21 : (⟨S128, .f32⟩ : BufTy).Contents (Elt Ideal)) :
    FVec Ideal ⟨2, ![50000, 128]⟩ .f32 :=
  mlp (M := 50000) (K := 128) (H := 256) (N := 128)
    (aggregate (mlpRect (M := 50000) (K := 128) (H := 256) (N := 128) (aggregate x ei ea e10 e20) w10 b10 w20 b20) ei ea e11 e21)
    w11 b11 w21 b21

end Cert.Gin

end
-- ==== Proof.Entry.lean ====
/-
  What each launch of the kernel finds in its operand arrays.

  Before the first launch the host operations aggregate the messages of the node features into the first launch's input
  matrix and recast the two bias vectors [256], [128] to rows [1, 256], [1, 128]; the weight matrices are arguments. Between
  the launches the same chain of operations aggregates the messages of the first launch's output, with the second layer's
  embedding tables, and recasts the second layer's biases. No host operation and no launch writes an argument array.
-/
import proofs.«159926_j50955491999989_1_alg».proof.Proof.Gen.KernelIdeal.Frame
import proofs.«159926_j50955491999989_1_alg».proof.Proof.Network
import Idealize.ShloMosaic.Lib.StableHlo.Run
import Idealize.ShloMosaic.Lib.ValueLayout
import Idealize.ShloMosaic.Lib.ValueIdx

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## Before the first launch -/

/-- The first launch's input matrix is the aggregation of the node features' messages. -/
theorem first_input (c : Dev nD) :
    (V1 m ρ c (Pipeline.arrRef spec0 0) : S50000x128.Idx → EReal)
      = Cert.Gin.aggregate (m ((c : Thread nD τ).loc main_arg0)) (m ((c : Thread nD τ).loc main_arg1))
          (m ((c : Thread nD τ).loc main_arg2)) (m ((c : Thread nD τ).loc main_arg3)) (m ((c : Thread nD τ).loc main_arg4)) := by
  show StableHlo.after hostOps0 (W0 m ρ c) (Proc.devRef .tc main_v33) = _
  dsimp only [hostOps0]
  after_results_simp
  rfl

/-- Its first weight matrix is the argument. -/
theorem first_w1 (c : Dev nD) :
    (V1 m ρ c (Pipeline.arrRef spec0 1) : S128x256.Idx → EReal) = m ((c : Thread nD τ).loc main_arg5) := by
  show StableHlo.after hostOps0 (W0 m ρ c) (Proc.devRef .tc main_arg5) = _
  dsimp only [hostOps0]
  after_results_simp
  try rfl

/-- Its second weight matrix is the argument. -/
theorem first_w2 (c : Dev nD) :
    (V1 m ρ c (Pipeline.arrRef spec0 3) : S256x128.Idx → EReal) = m ((c : Thread nD τ).loc main_arg7) := by
  show StableHlo.after hostOps0 (W0 m ρ c) (Proc.devRef .tc main_arg7) = _
  dsimp only [hostOps0]
  after_results_simp
  try rfl

/-- Its first bias row holds the argument vector. -/
theorem first_b1 (c : Dev nD) (h : Fin 256) :
    (V1 m ρ c (Pipeline.arrRef spec0 2) : S1x256.Idx → EReal) (ix2 (0 : Fin 1) h) = m ((c : Thread nD τ).loc main_arg6) (ix1 h) := by
  have e : (V1 m ρ c (Pipeline.arrRef spec0 2) : S1x256.Idx → EReal)
      = shapeCast S1x256 (m ((c : Thread nD τ).loc main_arg6) : S256.Idx → EReal) shapeCasts_S256_S1x256 := by
    show StableHlo.after hostOps0 (W0 m ρ c) (Proc.devRef .tc main_v34) = _
    dsimp only [hostOps0]
    after_results_simp
    try rfl
  rw [e]
  exact shapeCast_a_1a_apply _ shapeCasts_S256_S1x256 0 h

/-- Its second bias row holds the argument vector. -/
theorem first_b2 (c : Dev nD) (f : Fin 128) :
    (V1 m ρ c (Pipeline.arrRef spec0 4) : S1x128.Idx → EReal) (ix2 (0 : Fin 1) f) = m ((c : Thread nD τ).loc main_arg8) (ix1 f) := by
  have e : (V1 m ρ c (Pipeline.arrRef spec0 4) : S1x128.Idx → EReal)
      = shapeCast S1x128 (m ((c : Thread nD τ).loc main_arg8) : S128.Idx → EReal) shapeCasts_S128_S1x128 := by
    show StableHlo.after hostOps0 (W0 m ρ c) (Proc.devRef .tc main_v35) = _
    dsimp only [hostOps0]
    after_results_simp
    try rfl
  rw [e]
  exact shapeCast_a_1a_apply _ shapeCasts_S128_S1x128 0 f

/-! ## Between the launches -/

/-- After the first launch an argument the launch does not stage is as launched: the launch leaves it and the first
    stretch of host operations does not write it. -/
theorem kept_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  dsimp only [hostOps0]
  after_results_simp
  try rfl
theorem kept_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  dsimp only [hostOps0]
  after_results_simp
  try rfl
theorem kept_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  dsimp only [hostOps0]
  after_results_simp
  try rfl
theorem kept_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  dsimp only [hostOps0]
  after_results_simp
  try rfl
theorem kept_arg12 (c : Dev nD) : W2 m ρ c (Proc.devRef .tc main_arg12) = m ((c : Thread nD τ).loc main_arg12) := by
  refine (W2_of_ne m ρ c main_arg12 (by decide)).trans ?_
  show StableHlo.after hostOps0 (W0 m ρ c) (Proc.devRef .tc main_arg12) = _
  dsimp only [hostOps0]
  after_results_simp
  try rfl
theorem kept_arg14 (c : Dev nD) : W2 m ρ c (Proc.devRef .tc main_arg14) = m ((c : Thread nD τ).loc main_arg14) := by
  refine (W2_of_ne m ρ c main_arg14 (by decide)).trans ?_
  show StableHlo.after hostOps0 (W0 m ρ c) (Proc.devRef .tc main_arg14) = _
  dsimp only [hostOps0]
  after_results_simp
  try rfl

/-- The second launch's input matrix is the aggregation of the first launch's output, with the second layer's tables. -/
theorem second_input (c : Dev nD) :
    (V3 m ρ c (Pipeline.arrRef spec1 0) : S50000x128.Idx → EReal)
      = Cert.Gin.aggregate ((dat0 (V1 m ρ) c).arrAt 5 cfg0.N) (m ((c : Thread nD τ).loc main_arg1))
          (m ((c : Thread nD τ).loc main_arg2)) (m ((c : Thread nD τ).loc main_arg9)) (m ((c : Thread nD τ).loc main_arg10)) := by
  rw [← W2_arr m ρ c 5, ← kept_arg1 m ρ c, ← kept_arg2 m ρ c, ← kept_arg9 m ρ c, ← kept_arg10 m ρ c]
  show StableHlo.after hostOps1 (W2 m ρ c) (Proc.devRef .tc main_v70) = _
  dsimp only [hostOps1]
  after_results_simp
  rfl

/-- Its weight matrices are the arguments: the launch stages them and never writes them back. -/
theorem second_w1 (c : Dev nD) :
    (V3 m ρ c (Pipeline.arrRef spec1 1) : S128x256.Idx → EReal) = m ((c : Thread nD τ).loc main_arg11) :=
  ((W4_arr m ρ c 1).trans (((dat1 (V3 m ρ) c).arrAt_in 1 rfl _).trans (A_eq1 (V3 m ρ) c 1))).symm.trans (W4_main_arg11 m ρ c)

theorem second_w2 (c : Dev nD) :
    (V3 m ρ c (Pipeline.arrRef spec1 3) : S256x128.Idx → EReal) = m ((c : Thread nD τ).loc main_arg13) :=
  ((W4_arr m ρ c 3).trans (((dat1 (V3 m ρ) c).arrAt_in 3 rfl _).trans (A_eq1 (V3 m ρ) c 3))).symm.trans (W4_main_arg13 m ρ c)

/-- Its bias rows hold the second layer's argument vectors. -/
theorem second_b1 (c : Dev nD) (h : Fin 256) :
    (V3 m ρ c (Pipeline.arrRef spec1 2) : S1x256.Idx → EReal) (ix2 (0 : Fin 1) h) = m ((c : Thread nD τ).loc main_arg12) (ix1 h) := by
  have e : (V3 m ρ c (Pipeline.arrRef spec1 2) : S1x256.Idx → EReal)
      = shapeCast S1x256 (m ((c : Thread nD τ).loc main_arg12) : S256.Idx → EReal) shapeCasts_S256_S1x256 := by
    rw [← kept_arg12 m ρ c]
    show StableHlo.after hostOps1 (W2 m ρ c) (Proc.devRef .tc main_v71) = _
    dsimp only [hostOps1]
    after_results_simp
    try rfl
  rw [e]
  exact shapeCast_a_1a_apply _ shapeCasts_S256_S1x256 0 h

theorem second_b2 (c : Dev nD) (f : Fin 128) :
    (V3 m ρ c (Pipeline.arrRef spec1 4) : S1x128.Idx → EReal) (ix2 (0 : Fin 1) f) = m ((c : Thread nD τ).loc main_arg14) (ix1 f) := by
  have e : (V3 m ρ c (Pipeline.arrRef spec1 4) : S1x128.Idx → EReal)
      = shapeCast S1x128 (m ((c : Thread nD τ).loc main_arg14) : S128.Idx → EReal) shapeCasts_S128_S1x128 := by
    rw [← kept_arg14 m ρ c]
    show StableHlo.after hostOps1 (W2 m ρ c) (Proc.devRef .tc main_v72) = _
    dsimp only [hostOps1]
    after_results_simp
    try rfl
  rw [e]
  exact shapeCast_a_1a_apply _ shapeCasts_S128_S1x128 0 f

end Cert.KernelIdeal.Entry

end
-- ==== Proof.ReferenceNetwork.lean ====
/-
  The reference computes the network.

  Its program is the aggregation's host operations, then dot_general, a bias spread over the rows, a rectifier, dot_general,
  a bias, a rectifier between the layers, and the same once more without the last rectifier. The aggregation of the second
  layer is the first layer's chain of operations applied to the first layer's output, so it is the same opaque function.
-/
import proofs.«159926_j50955491999989_1_alg».proof.Proof.Network

noncomputable section

namespace Cert.Gin

open Idealize.ShloMosaic Cert.LibTwoLayerRows Cert.ReferenceIdeal Cert.ReferenceIdeal.Gen Cert.ReferenceIdeal.Read

/-- The reference's result, as a function of the argument arrays, is the network. -/
theorem reference_is_network (x0 : (⟨S50000x128, .f32⟩ : BufTy).Contents (Elt Ideal)) (x1 : (⟨S2x800000, .i32⟩ : BufTy).Contents (Elt Ideal))
    (x2 : (⟨S800000x2, .i32⟩ : BufTy).Contents (Elt Ideal))
    (x3 : (⟨S6x128, .f32⟩ : BufTy).Contents (Elt Ideal)) (x4 : (⟨S3x128, .f32⟩ : BufTy).Contents (Elt Ideal))
    (x5 : (⟨S128x256, .f32⟩ : BufTy).Contents (Elt Ideal)) (x6 : (⟨S256, .f32⟩ : BufTy).Contents (Elt Ideal))
    (x7 : (⟨S256x128, .f32⟩ : BufTy).Contents (Elt Ideal)) (x8 : (⟨S128, .f32⟩ : BufTy).Contents (Elt Ideal))
    (x9 : (⟨S6x128, .f32⟩ : BufTy).Contents (Elt Ideal)) (x10 : (⟨S3x128, .f32⟩ : BufTy).Contents (Elt Ideal))
    (x11 : (⟨S128x256, .f32⟩ : BufTy).Contents (Elt Ideal)) (x12 : (⟨S256, .f32⟩ : BufTy).Contents (Elt Ideal))
    (x13 : (⟨S256x128, .f32⟩ : BufTy).Contents (Elt Ideal)) (x14 : (⟨S128, .f32⟩ : BufTy).Contents (Elt Ideal)) :
    val_main_v86 (F := Ideal) x0 x1 x2 x3 x4 x5 x6 x7 x8 x9 x10 x11 x12 x13 x14
      = network x0 x1 x2 x3 x4 x5 x6 x7 x8 x9 x10 x11 x12 x13 x14 := by
  have first : val_main_v43 (F := Ideal) x0 x1 x2 x3 x4 x5 x6 x7 x8
      = mlpRect (M := 50000) (K := 128) (H := 256) (N := 128) (aggregate x0 x1 x2 x3 x4) x5 x6 x7 x8 :=
    host_mlpRect dot_S50000x128_S128x256_S50000x256_1_0_0_1_n_n rfl dot_S50000x256_S256x128_S50000x128_1_0_0_1_n_n rfl none none
      (aggregate x0 x1 x2 x3 x4) x5 x6 x7 x8 bcast_S256_S1x256_1 bcast_S1x256_S50000x256_0_1 bcast_S_S50000x256
      bcast_S128_S1x128_1 bcast_S1x128_S50000x128_0_1 bcast_S_S50000x128
  have again : val_main_v77 (F := Ideal) x0 x1 x2 x3 x4 x5 x6 x7 x8 x9 x10
      = aggregate (val_main_v43 (F := Ideal) x0 x1 x2 x3 x4 x5 x6 x7 x8) x1 x2 x9 x10 := rfl
  have second : val_main_v86 (F := Ideal) x0 x1 x2 x3 x4 x5 x6 x7 x8 x9 x10 x11 x12 x13 x14
      = mlp (M := 50000) (K := 128) (H := 256) (N := 128) (val_main_v77 (F := Ideal) x0 x1 x2 x3 x4 x5 x6 x7 x8 x9 x10) x11 x12 x13 x14 :=
    host_mlp dot_S50000x128_S128x256_S50000x256_1_0_0_1_n_n rfl dot_S50000x256_S256x128_S50000x128_1_0_0_1_n_n rfl none none
      (val_main_v77 (F := Ideal) x0 x1 x2 x3 x4 x5 x6 x7 x8 x9 x10) x11 x12 x13 x14 bcast_S256_S1x256_1 bcast_S1x256_S50000x256_0_1
      bcast_S_S50000x256 bcast_S128_S1x128_1 bcast_S1x128_S50000x128_0_1
  rw [second, again, first]
  rfl

end Cert.Gin

end
-- ==== Proof.lean ====
/-
  The certificate of a two-layer message-passing network: a kernel program against its array-language reference.

  Both programs aggregate, per layer, one message per edge into the row of the edge's target node, and push the aggregated
  matrix [50000, 128] through a perceptron with 256 rectified hidden units; a rectifier sits between the two layers. The
  reference computes each perceptron with whole-matrix products. The kernel program keeps the aggregation as host array
  operations and launches a kernel twice, once per layer: each launch walks 25 blocks of 2000 rows, narrows the operands
  to bf16 before each matrix product (the identity on the extended reals) and writes the block of result rows back.

  An entry of a perceptron's output reads one row of its input, so the 25 blocks a launch writes back are the 25 row blocks
  of the perceptron of the whole matrix (Launch0, Launch1, over the row functions of LibTwoLayerRows). The host operations
  around the launches are the reference's own aggregation (Entry), so the result buffer ends at the network of the
  arguments (Network), which is what the reference's run ends at (ReferenceNetwork). No law of arithmetic is used and no
  input needs to be finite: at every index both sides are the same tree of sums, products and maxima.

  The three frames are the generated ones (the reference's is its generated run with the result dropped); the
  idealization rewrote nothing, so the preservation claim is trivial.
-/
import proofs.«159926_j50955491999989_1_alg».proof.Defs
import proofs.«159926_j50955491999989_1_alg».proof.Proof.Gen.Kernel
import proofs.«159926_j50955491999989_1_alg».proof.Proof.Gen.Kernel.Skeleton
import proofs.«159926_j50955491999989_1_alg».proof.Proof.Gen.Kernel.Launch
import proofs.«159926_j50955491999989_1_alg».proof.Proof.Gen.Kernel.Points
import proofs.«159926_j50955491999989_1_alg».proof.Proof.Gen.Kernel.Frame
import proofs.«159926_j50955491999989_1_alg».proof.Proof.Gen.KernelIdeal
import proofs.«159926_j50955491999989_1_alg».proof.Proof.Gen.KernelIdeal.Skeleton
import proofs.«159926_j50955491999989_1_alg».proof.Proof.Gen.KernelIdeal.Launch
import proofs.«159926_j50955491999989_1_alg».proof.Proof.Gen.KernelIdeal.Points
import proofs.«159926_j50955491999989_1_alg».proof.Proof.Gen.KernelIdeal.Frame
import proofs.«159926_j50955491999989_1_alg».proof.Proof.Gen.ReferenceIdeal
import proofs.«159926_j50955491999989_1_alg».proof.Proof.Gen.ReferenceIdeal.Run
import proofs.«159926_j50955491999989_1_alg».proof.Proof.Gen.ReferenceIdeal.Read
import proofs.«159926_j50955491999989_1_alg».proof.Proof.Gen.Pre_finite_inputs
import proofs.«159926_j50955491999989_1_alg».proof.Proof.RunNamed
import proofs.«159926_j50955491999989_1_alg».proof.Proof.Launch0
import proofs.«159926_j50955491999989_1_alg».proof.Proof.Launch1
import proofs.«159926_j50955491999989_1_alg».proof.Proof.Entry
import proofs.«159926_j50955491999989_1_alg».proof.Proof.Network
import proofs.«159926_j50955491999989_1_alg».proof.Proof.ReferenceNetwork
import Idealize.ShloMosaic.Adequacy
import Idealize.ShloMosaic.Init

set_option maxRecDepth 16384

noncomputable section

namespace Cert.Proof

open Idealize.ShloMosaic Idealize.ShloMosaic.TcCoe Idealize.SL.Sem

/-- The kernel program's result array, after the second launch's last point, is the network of the argument arrays. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.dat1 (Cert.KernelIdeal.Gen.V3 m ρ) c).arrAt 5 Cert.KernelIdeal.cfg1.N
      = Cert.Gin.network
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14)) := by
  rw [Cert.KernelIdeal.Launch1.final (Cert.KernelIdeal.Gen.V3 m ρ) c
      (m ((c.tc : Thread Cert.KernelIdeal.nD Cert.KernelIdeal.τ).loc Cert.KernelIdeal.main_arg12))
      (m ((c.tc : Thread Cert.KernelIdeal.nD Cert.KernelIdeal.τ).loc Cert.KernelIdeal.main_arg14))
      (Cert.KernelIdeal.Entry.second_b1 m ρ c) (Cert.KernelIdeal.Entry.second_b2 m ρ c),
    Cert.KernelIdeal.Entry.second_input m ρ c, Cert.KernelIdeal.Entry.second_w1 m ρ c, Cert.KernelIdeal.Entry.second_w2 m ρ c,
    Cert.KernelIdeal.Launch0.final (Cert.KernelIdeal.Gen.V1 m ρ) c
      (m ((c.tc : Thread Cert.KernelIdeal.nD Cert.KernelIdeal.τ).loc Cert.KernelIdeal.main_arg6))
      (m ((c.tc : Thread Cert.KernelIdeal.nD Cert.KernelIdeal.τ).loc Cert.KernelIdeal.main_arg8))
      (Cert.KernelIdeal.Entry.first_b1 m ρ c) (Cert.KernelIdeal.Entry.first_b2 m ρ c),
    Cert.KernelIdeal.Entry.first_input m ρ c, Cert.KernelIdeal.Entry.first_w1 m ρ c, Cert.KernelIdeal.Entry.first_w2 m ρ c]
  rfl

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the network of the arguments in their result buffers. -/
theorem algebraic : Cert.algebraic_KernelIdeal_ReferenceIdeal := by
  intro m ρ m' ρ' _ hagree
  refine ⟨fun c => Cert.Gin.network
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14)), ?_, ?_⟩
  · exact (θ_run Cert.KernelIdeal.defs _ _).mono (fun r h c => ⟨(h c).1.trans (kernel_result m ρ c), (h c).2⟩)
      (Cert.KernelIdeal.Named.run m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7, a8, a9, a10, a11, a12, a13, a14⟩ := hagree c
    rw [(h c).1, Cert.ReferenceIdeal.Read.val_main_v86_eq, Cert.Gin.reference_is_network,
      a0, a1, a2, a3, a4, a5, a6, a7, a8, a9, a10, a11, a12, a13, a14]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
